-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S64 .f32) (main_arg7 : FVec F S800000 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S800000 .f32 := Host.absf main_arg7
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S800000 32) (main_arg6 : IVec S800000 32) (main_arg7 : FVec F S800000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg7 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 44
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S1x64, .f32⟩
  | .hbm, ⟨43, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S800000, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S800000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The whole program's run with its result named.

  The program is two stretches of host operations, each followed by one dense region. Its run from any memory ends
  with every buffer that outlives a region at the contents the last boundary of the run names: the arguments as they
  were launched, and the result at what the second region's write-backs leave in its array — the array assembled from
  the ten blocks the region's grid points flush.
-/
import proofs.«103124_j48533130445596_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; the result buffer ends at the last
    boundary's contents and the arguments end as launched. -/
theorem run_result : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer's contents at the last boundary are what the second region's write-backs leave in its array. -/
theorem result_arr (c : Dev nD) : W4 m ρ c (Proc.devRef .tc main_v29) = (dat1 (V3 m ρ) c).arrAt 3 cfg1.N :=
  W4_arr m ρ c 3

end Cert.KernelIdeal.Hand

end
-- ==== Proof.LibRowBlock.lean ====
/-
  Row blocks of a matrix product and of a row broadcast, at the ideal values.

  A kernel that walks the rows of a matrix in blocks computes, per block, the product of the block with the whole
  right operand and adds a bias row; the reference computes the product of the whole matrix once. At the ideal
  values both are the same sums, entry by entry: a plain product read at an entry is the sum over the contracted
  coordinate of the operands' products (for the kernel's product into a zero accumulator and for the host's), so
  the entry (p, q) of the product of the block of rows starting at row o is the entry (o + p, q) of the whole
  product; and a vector repeated along rows reads, at any entry, the vector at the entry's column.
-/
import Idealize.ShloMosaic.Lib.ValueLayout
import Idealize.ShloMosaic.PureOps.Ideal.Laws

noncomputable section

open scoped BigOperators

namespace Cert.LibRowBlock

open Idealize.ShloMosaic Idealize.ShloMosaic.ValueIdx

/-! ## A plain product read at an entry -/

section Product
variable {m k n : Nat} {φ₁ φ₂ : FTy}

/-- In a plain product the left operand's index at the entry (a, b) and contracted coordinate c is (a, c). -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- … and the right operand's is (c, b). -/
theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The kernel's product into the zero accumulator, for dimension numbers that are the plain product's (`hd`: by
    `rfl` for a printed record of those numbers), read at the entry (a, b): the sum over the contracted coordinate. -/
theorem matmul_zero_apply (d : DotDims (⟨2, ![m, k]⟩ : Shape) ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (a : Fin m) (b : Fin n) :
    matmul d prec A B (constant (F := Ideal) ⟨2, ![m, n]⟩ .f32 0x00000000#32) (ix2 a b) = ∑ c : Fin k, A (ix2 a c) * B (ix2 c b) := by
  subst hd
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

/-- The host's product, for dimension numbers that are the plain product's, read at the entry (a, b): the same sum. -/
theorem dotGeneral_apply (d : DotDims (⟨2, ![m, k]⟩ : Shape) ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  show FloatOps.dotGeneral _ prec _ A B (ix2 a b) = _
  rw [Ideal.dotGeneral_apply, ← Equiv.sum_comp (contrEquiv1 (DotDims.plain m k n) k rfl rfl).symm]
  refine Finset.sum_congr rfl fun c _ => ?_
  rw [plain_lhsIdx, plain_rhsIdx]

/-- A ROW BLOCK OF A PRODUCT IS THE PRODUCT OF THE ROW BLOCK. `Xb` holds the `m` rows of `X` from row `o` on
    (`hX`) and `Wb` is `W` entry by entry (`hW`; the operands' formats may differ: at the ideal values a format
    change is the identity): the kernel's product of the block into the zero accumulator at (p, q) is the host's
    product of the whole matrix at (o + p, q). -/
theorem matmul_zero_rowBlock {M : Nat} {φ₃ φ₄ : FTy}
    (d : DotDims (⟨2, ![m, k]⟩ : Shape) ⟨2, ![k, n]⟩ ⟨2, ![m, n]⟩) (hd : d = DotDims.plain m k n)
    (D : DotDims (⟨2, ![M, k]⟩ : Shape) ⟨2, ![k, n]⟩ ⟨2, ![M, n]⟩) (hD : D = DotDims.plain M k n)
    (prec prec' : Option ContractPrecision) (o : Nat)
    (X : FVec Ideal ⟨2, ![M, k]⟩ φ₃) (Xb : FVec Ideal ⟨2, ![m, k]⟩ φ₁) (W : FVec Ideal ⟨2, ![k, n]⟩ φ₄) (Wb : FVec Ideal ⟨2, ![k, n]⟩ φ₂)
    (hX : ∀ (p : Fin m) (c : Fin k) (h : o + p.val < M), Xb (ix2 p c) = X (ix2 ⟨o + p.val, h⟩ c))
    (hW : ∀ (c : Fin k) (q : Fin n), Wb (ix2 c q) = W (ix2 c q))
    (p : Fin m) (q : Fin n) (h : o + p.val < M) :
    matmul d prec Xb Wb (constant (F := Ideal) ⟨2, ![m, n]⟩ .f32 0x00000000#32) (ix2 p q)
      = Host.dotGeneral D prec' X W (ix2 ⟨o + p.val, h⟩ q) := by
  rw [matmul_zero_apply d hd, dotGeneral_apply D hD]
  exact Finset.sum_congr rfl fun c _ => by rw [hX p c h, hW c q]

end Product

/-! ## A vector repeated along rows -/

section Rows
variable {α : Type} {a b : Nat}

/-- The kernel's spelling — the vector given a leading unit axis and broadcast over `a` rows — reads, at (p, q),
    the vector at q. -/
theorem rows_kernel_apply0 (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- The same with the vector first cast to its own shape. -/
theorem rows_kernel_apply (v : (⟨1, ![b]⟩ : Shape).Idx → α) (h0 : (⟨1, ![b]⟩ : Shape).ShapeCasts ⟨1, ![b]⟩)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ v h0) h1) h2 (ix2 p q) = v (ix1 q) := by
  rw [broadcastTo_1b_ab_apply, shapeCast_a_1a_apply, shapeCast_self]

/-- The host's spelling — the vector broadcast into one row, the row broadcast over `a` rows — reads, at (p, q),
    the vector at q. -/
theorem rows_host_apply (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (p : Fin a) (q : Fin b) :
    broadcastInDim ⟨2, ![a, b]⟩ (![0, 1] : Fin 2 → Fin 2) h2 (broadcastInDim ⟨2, ![1, b]⟩ (![1] : Fin 1 → Fin 2) h1 v) (ix2 p q) = v (ix1 q) := by
  rw [broadcastInDim_apply (![0, 1] : Fin 2 → Fin 2) h2 _ (ix2 p q) (ix2 (0 : Fin 1) q) (fun ax => by
    match ax with
    | ⟨0, _⟩ => rfl
    | ⟨1, _⟩ =>
      show q.val = if b = 1 then 0 else q.val
      split
      · have := q.isLt; omega
      · rfl)]
  exact broadcastInDim_apply (![1] : Fin 1 → Fin 2) h1 v (ix2 (0 : Fin 1) q) (ix1 q) (fun ax => by
    match ax with
    | ⟨0, _⟩ =>
      show q.val = if b = 1 then 0 else q.val
      split
      · have := q.isLt; omega
      · rfl)

end Rows

end Cert.LibRowBlock

end
-- ==== Proof.Affine.lean ====
/-
  An affine layer of a row-major matrix, and how its rows are computed block by block.

  For X : [M, k], W : [k, n] and a bias row b of n entries, the layer is the array whose entry (r, q) is
  the sum over c of X(r, c) · W(c, q), plus b(q); the rectified layer takes the larger of that and zero.
  Over the extended reals this is a plain finite sum, and the sum for row r reads only row r of X.  So
  a program that walks the rows of X in blocks of m rows, multiplies each block with the whole of W into a
  zero accumulator and adds the bias row repeated along the rows, computes — at entry (p, q) of the block
  that starts at row o — exactly entry (o + p, q) of the layer; and the host's one product of the whole
  matrix followed by the bias repeated along the rows is the layer itself.  Rounding the operands of the
  product to a narrower format does not change them at the ideal values.  No law of arithmetic is used
  beyond reading both sides as the same sum, so nothing here needs the entries to be finite.
-/
import proofs.«103124_j48533130445596_1_alg».proof.Proof.LibRowBlock
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Affine

open Idealize.ShloMosaic Idealize.ShloMosaic.ValueIdx

variable {M m k n : Nat}

/-- The affine layer: entry (r, q) is the sum over c of X(r, c) · W(c, q), plus the bias at q. -/
def affine (X : FVec Ideal ⟨2, ![M, k]⟩ .f32) (W : FVec Ideal ⟨2, ![k, n]⟩ .f32) (b : Fin n → Ideal .f32) :
    FVec Ideal ⟨2, ![M, n]⟩ .f32 := fun i =>
  (∑ c : Fin k, X (ix2 (⟨(i 0).val, idx2_lt0 i⟩ : Fin M) c) * W (ix2 c (⟨(i 1).val, idx2_lt1 i⟩ : Fin n)))
    + b (⟨(i 1).val, idx2_lt1 i⟩ : Fin n)

/-- The layer read at the entry (r, q). -/
theorem affine_apply (X : FVec Ideal ⟨2, ![M, k]⟩ .f32) (W : FVec Ideal ⟨2, ![k, n]⟩ .f32) (b : Fin n → Ideal .f32)
    (r : Fin M) (q : Fin n) : affine X W b (ix2 r q) = (∑ c : Fin k, X (ix2 r c) * W (ix2 c q)) + b q := rfl

/-- The rectifier: the larger of each entry and zero. -/
def relu {s : Shape} (Y : FVec Ideal s .f32) : FVec Ideal s .f32 := fun i => max (Y i) 0

theorem relu_apply {s : Shape} (Y : FVec Ideal s .f32) (i : s.Idx) : relu Y i = max (Y i) 0 := rfl

/-! ## The host's spelling -/

/-- One product of the whole matrix, then the bias vector made a row and the row repeated along the rows: the layer. -/
theorem host_affine (D : DotDims (⟨2, ![M, k]⟩ : Shape) ⟨2, ![k, n]⟩ ⟨2, ![M, n]⟩) (hD : D = DotDims.plain M k n)
    (prec : Option ContractPrecision)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (X : FVec Ideal ⟨2, ![M, k]⟩ .f32) (W : FVec Ideal ⟨2, ![k, n]⟩ .f32) (b : FVec Ideal ⟨1, ![n]⟩ .f32) :
    addf (Host.dotGeneral D prec X W)
        (broadcastInDim ⟨2, ![M, n]⟩ (![0, 1] : Fin 2 → Fin 2) h2 (broadcastInDim ⟨2, ![1, n]⟩ (![1] : Fin 1 → Fin 2) h1 b))
      = affine X W (fun q => b (ix1 q)) := by
  funext i
  obtain ⟨r, q, rfl⟩ : ∃ (r : Fin M) (q : Fin n), i = ix2 r q := ⟨i 0, i 1, eq_ix2 i⟩
  rw [addf_apply, Cert.LibRowBlock.dotGeneral_apply D hD, Cert.LibRowBlock.rows_host_apply, affine_apply]

/-- The host's rectifier — the larger of the array and the zero word repeated everywhere — is `relu`. -/
theorem host_relu {s : Shape} (h0 : (⟨0, ![]⟩ : Shape).BroadcastsInDim s (![] : Fin 0 → Fin s.rank)) (Y : FVec Ideal s .f32) :
    maximumf Y (broadcastInDim s (![] : Fin 0 → Fin s.rank) h0 (constant (F := Ideal) (⟨0, ![]⟩ : Shape) .f32 0x00000000#32)) = relu Y := by
  funext i
  rw [maximumf_apply, relu_apply, broadcastInDim_apply (![] : Fin 0 → Fin s.rank) h0 _ i ix0 (fun ax => ax.elim0),
    constant_apply, Ideal.ofBits_zero_f32]

/-! ## One block of rows, in the kernel's spelling -/

/-- The kernel's block of m rows starting at row o: the block `Xb` holds those rows of `X` (`hX`), `Wb` is `W`
    (`hW`) and the one row `bb` holds the bias (`hb`). Its product into the zero accumulator, of the operands rounded to
    a narrower format, plus the bias row repeated along the block's rows, is at (p, q) the layer at (o + p, q). -/
theorem block_affine (d : DotDims (⟨2, ![m, k]⟩ : Shape) ⟨2, ![k, n]⟩ ⟨2, ![m, n]⟩) (hd : d = DotDims.plain m k n)
    (prec : Option ContractPrecision) {ψ : FTy} (hψ : ψ.bits < FTy.f32.bits)
    (hc0 : (⟨2, ![m, k]⟩ : Shape).ShapeCasts ⟨2, ![m, k]⟩) (hc1 : (⟨2, ![1, n]⟩ : Shape).ShapeCasts ⟨2, ![1, n]⟩)
    (hbr : (⟨2, ![1, n]⟩ : Shape).Broadcasts ⟨2, ![m, n]⟩)
    (X : FVec Ideal ⟨2, ![M, k]⟩ .f32) (W : FVec Ideal ⟨2, ![k, n]⟩ .f32) (b : Fin n → Ideal .f32)
    (Xb : FVec Ideal ⟨2, ![m, k]⟩ .f32) (Wb : FVec Ideal ⟨2, ![k, n]⟩ .f32) (bb : FVec Ideal ⟨2, ![1, n]⟩ .f32) (o : Nat)
    (hX : ∀ (p : Fin m) (c : Fin k) (h : o + p.val < M), Xb (ix2 p c) = X (ix2 ⟨o + p.val, h⟩ c))
    (hW : ∀ (c : Fin k) (q : Fin n), Wb (ix2 c q) = W (ix2 c q))
    (hb : ∀ q : Fin n, bb (ix2 (0 : Fin 1) q) = b q)
    (p : Fin m) (q : Fin n) (h : o + p.val < M) :
    addf (matmul d prec (truncf ψ (shapeCast ⟨2, ![m, k]⟩ Xb hc0) hψ) (truncf ψ Wb hψ)
            (constant (F := Ideal) ⟨2, ![m, n]⟩ .f32 0x00000000#32))
        (broadcastTo ⟨2, ![m, n]⟩ (shapeCast ⟨2, ![1, n]⟩ bb hc1) hbr) (ix2 p q)
      = affine X W b (ix2 ⟨o + p.val, h⟩ q) := by
  rw [addf_apply, Cert.LibRowBlock.matmul_zero_apply d hd, broadcastTo_1b_ab_apply, shapeCast_self, shapeCast_self,
    affine_apply, hb q]
  refine congrArg (· + b q) (Finset.sum_congr rfl fun c _ => ?_)
  rw [truncf_apply, truncf_apply, hX p c h, hW c q]

end Cert.Affine

end
-- ==== Proof.Blocks.lean ====
/-
  The two dense regions, block by block, at the ideal values.

  Each region walks the rows of its left operand in ten blocks of 5000 rows. At the grid point t the left
  window holds rows 5000·t … 5000·t + 4999 of its array, the weight window the whole weight matrix, the bias window
  the whole one-row bias array, and the output window is written back to the same rows of the result. The body
  multiplies the block with the weights into a zero accumulator, adds the bias row along the rows (and, in the first
  region, takes the larger of that and zero). So what point t writes back is block t of ONE whole-array function of
  the arrays the region finds: the (rectified) affine layer of `Cert.Affine`. The ten blocks tile the 50000 rows,
  hence the result array ends holding that layer. Everything is stated for ANY contents `V` the region is entered
  with.
-/
import proofs.«103124_j48533130445596_1_alg».proof.Proof.Gen.KernelIdeal.Frame
import proofs.«103124_j48533130445596_1_alg».proof.Proof.Affine
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Affine

variable (V : (c : Dev nD) → (b : Ref sig .tc) → Buf (Elt Ideal) ((c : Thread nD τ).loc b))

theorem hz : (![0, 0] : Fin 2 → Nat) = fun _ => 0 := funext fun a => by fin_cases a <;> rfl

/-! ## The payloads at an entry -/

/-- The first region's body on a block of rows starting at row o: the rectified layer's entry (o + p, q). -/
theorem pay0_apply (X : FVec Ideal S50000x128 .f32) (W : FVec Ideal S128x128 .f32) (b : Fin 128 → Ideal .f32)
    (x0 : Vec Ideal S5000x128 .f32) (x1 : Vec Ideal S128x128 .f32) (x2 : Vec Ideal S1x128 .f32) (o : Nat)
    (hX : ∀ (p : Fin 5000) (c : Fin 128) (h : o + p.val < 50000), x0 (ix2 p c) = X (ix2 ⟨o + p.val, h⟩ c))
    (hW : ∀ (c : Fin 128) (q : Fin 128), x1 (ix2 c q) = W (ix2 c q))
    (hb : ∀ q : Fin 128, x2 (ix2 (0 : Fin 1) q) = b q)
    (p : Fin 5000) (q : Fin 128) (h : o + p.val < 50000) :
    k0_pay1 (F := Ideal) x0 x1 x2 (ix2 p q) = relu (affine X W b) (ix2 ⟨o + p.val, h⟩ q) := by
  unfold k0_pay1
  show max _ (Ideal.ofBits .f32 0x00000000#32) = max _ 0
  exact congrArg₂ max
    (block_affine dot_S5000x128_S128x128_S5000x128_1_0_0_1_n_n rfl none bitsLt_bf16_f32 shapeCasts_S5000x128_S5000x128
      shapeCasts_S1x128_S1x128 broadcasts_S1x128_S5000x128 X W b x0 x1 x2 o hX hW hb p q h)
    Ideal.ofBits_zero_f32

/-- The second region's body on a block of rows starting at row o: the layer's entry (o + p, q). -/
theorem pay1_apply (X : FVec Ideal S50000x128 .f32) (W : FVec Ideal S128x64 .f32) (b : Fin 64 → Ideal .f32)
    (x0 : Vec Ideal S5000x128 .f32) (x1 : Vec Ideal S128x64 .f32) (x2 : Vec Ideal S1x64 .f32) (o : Nat)
    (hX : ∀ (p : Fin 5000) (c : Fin 128) (h : o + p.val < 50000), x0 (ix2 p c) = X (ix2 ⟨o + p.val, h⟩ c))
    (hW : ∀ (c : Fin 128) (q : Fin 64), x1 (ix2 c q) = W (ix2 c q))
    (hb : ∀ q : Fin 64, x2 (ix2 (0 : Fin 1) q) = b q)
    (p : Fin 5000) (q : Fin 64) (h : o + p.val < 50000) :
    k1_pay1 (F := Ideal) x0 x1 x2 (ix2 p q) = affine X W b (ix2 ⟨o + p.val, h⟩ q) := by
  unfold k1_pay1
  exact block_affine dot_S5000x128_S128x64_S5000x64_1_0_0_1_n_n rfl none bitsLt_bf16_f32 shapeCasts_S5000x128_S5000x128
      shapeCasts_S1x64_S1x64 broadcasts_S1x64_S5000x64 X W b x0 x1 x2 o hX hW hb p q h

/-! ## Where the windows' blocks sit -/

/-- The printed index maps over the grid: the row windows (left operand, result) are at block row t, every other
    block index is zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## Region 0: its input blocks read off the arrays -/

/-- The left window's block at point t is rows 5000·t … of the left array. -/
theorem iblk0_0_apply (c : Dev nD) (t : Fin cfg0.N) (p : Fin 5000) (k : Fin 128) (h : t.val * 5000 + p.val < 50000) :
    (iblk0 V c 0 t : Vec Ideal S5000x128 .f32) (ix2 p k)
      = (V c main_v12 : S50000x128.Idx → Elt Ideal .f32) (ix2 ⟨t.val * 5000 + p.val, h⟩ k) := by
  obtain ⟨e0, e1, -⟩ := idx0 t
  unfold iblk0
  rw [View.read_apply]
  show V c main_v12 _ = V c main_v12 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * k.val = k.val; rw [e1]; omega

/-- The weight window's block is the whole weight matrix. -/
theorem iblk0_1_apply (c : Dev nD) (t : Fin cfg0.N) (k : Fin 128) (q : Fin 128) :
    (iblk0 V c 1 t : Vec Ideal S128x128 .f32) (ix2 k q) = (V c main_arg1 : S128x128.Idx → Elt Ideal .f32) (ix2 k q) := by
  obtain ⟨-, -, e2, e3, -⟩ := idx0 t
  unfold iblk0
  rw [View.read_apply]
  show V c main_arg1 _ = V c main_arg1 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- The bias window's block is the whole one-row bias array. -/
theorem iblk0_2_apply (c : Dev nD) (t : Fin cfg0.N) (q : Fin 128) :
    (iblk0 V c 2 t : Vec Ideal S1x128 .f32) (ix2 (0 : Fin 1) q) = (V c main_v13 : S1x128.Idx → Elt Ideal .f32) (ix2 (0 : Fin 1) q) := by
  obtain ⟨-, -, -, -, e4, e5, -⟩ := idx0 t
  unfold iblk0
  rw [View.read_apply]
  show V c main_v13 _ = V c main_v13 _
  congr 1
  funext a
  apply Fin.ext
  match a with
  | ⟨0, _⟩ => show win0_2.index t 0 * 1 + 1 * 0 = 0; rw [e4]
  | ⟨1, _⟩ => show win0_2.index t 1 * 128 + 1 * q.val = q.val; rw [e5]; omega

/-- The rectified layer of a left array, a weight matrix and a one-row bias array. -/
def layer0 (X : FVec Ideal S50000x128 .f32) (W : FVec Ideal S128x128 .f32) (B : FVec Ideal S1x128 .f32) : FVec Ideal S50000x128 .f32 :=
  relu (affine X W fun q => B (ix2 (0 : Fin 1) q))

/-- The layer of a left array, a weight matrix and a one-row bias array. -/
def layer1 (X : FVec Ideal S50000x128 .f32) (W : FVec Ideal S128x64 .f32) (B : FVec Ideal S1x64 .f32) : FVec Ideal S50000x64 .f32 :=
  affine X W fun q => B (ix2 (0 : Fin 1) q)

/-- WHAT POINT t OF REGION 0 WRITES BACK is block t of the rectified layer of the arrays the region finds. -/
theorem flushed0 (c : Dev nD) (t : Fin cfg0.N) :
    (dat0 V c).flushed 3 t
      = ((cfg0.win 3).blk t).view.read (Elt Ideal) (layer0 (V c main_v12) (V c main_arg1) (V c main_v13)) := by
  obtain ⟨-, -, -, -, -, -, e6, e7⟩ := idx0 t
  have ht : t.val < 10 := by have h1 := t.isLt; have h2 : cfg0.N = 10 := N_0; omega
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = (ix2 p q : S5000x128.Idx) := ⟨j 0, j 1, eq_ix2 j⟩
  have hlt : t.val * 5000 + p.val < 50000 := by have := p.isLt; omega
  rw [View.read_apply]
  have he : ((View.whole main_v14).slice ((win0 3).rect t)).emb (ix2 p q) = (ix2 ⟨t.val * 5000 + p.val, hlt⟩ q : S50000x128.Idx) := by
    funext a; apply Fin.ext
    match a with
    | ⟨0, _⟩ => show win0_3.index t 0 * 5000 + 1 * p.val = t.val * 5000 + p.val; rw [e6]; omega
    | ⟨1, _⟩ => show win0_3.index t 1 * 128 + 1 * q.val = q.val; rw [e7]; omega
  rw [he]
  exact pay0_apply _ _ _ _ _ _ (t.val * 5000) (fun p k h => iblk0_0_apply V c t p k h) (fun k q => iblk0_1_apply V c t k q)
    (fun q => iblk0_2_apply V c t q) p q hlt

/-- An index of the result array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- The ten row blocks tile the result: row r is in the block of point r / 5000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, e6, e7⟩ := idx0 t
  refine ⟨t, flush0_3 t, ?_⟩
  rw [mem_blk0]
  intro a
  match a with
  | ⟨0, _⟩ => show win0_3.index t 0 * 5000 ≤ (i 0).val ∧ (i 0).val < win0_3.index t 0 * 5000 + 5000; rw [e6]; omega
  | ⟨1, _⟩ => show win0_3.index t 1 * 128 ≤ (i 1).val ∧ (i 1).val < win0_3.index t 1 * 128 + 128; rw [e7]; omega

/-- REGION 0's RESULT ARRAY after the region: the rectified layer of the arrays the region finds. -/
theorem final0 (c : Dev nD) : (dat0 V c).arrAt 3 cfg0.N = layer0 (V c main_v12) (V c main_arg1) (V c main_v13) :=
  (dat0 V c).arrAt_eq_of_cover 3 (layer0 (V c main_v12) (V c main_arg1) (V c main_v13)) (fun t _ => flushed0 V c t) cover0

/-! ## Region 1, the same way -/

theorem iblk1_0_apply (c : Dev nD) (t : Fin cfg1.N) (p : Fin 5000) (k : Fin 128) (h : t.val * 5000 + p.val < 50000) :
    (iblk1 V c 0 t : Vec Ideal S5000x128 .f32) (ix2 p k)
      = (V c main_v27 : S50000x128.Idx → Elt Ideal .f32) (ix2 ⟨t.val * 5000 + p.val, h⟩ k) := by
  obtain ⟨e0, e1, -⟩ := idx1 t
  unfold iblk1
  rw [View.read_apply]
  show V c main_v27 _ = V c main_v27 _
  congr 1
  funext a
  apply Fin.ext
  match a with
  | ⟨0, _⟩ => show win1_0.index t 0 * 5000 + 1 * p.val = t.val * 5000 + p.val; rw [e0]; omega
  | ⟨1, _⟩ => show win1_0.index t 1 * 128 + 1 * k.val = k.val; rw [e1]; omega

theorem iblk1_1_apply (c : Dev nD) (t : Fin cfg1.N) (k : Fin 128) (q : Fin 64) :
    (iblk1 V c 1 t : Vec Ideal S128x64 .f32) (ix2 k q) = (V c main_arg3 : S128x64.Idx → Elt Ideal .f32) (ix2 k q) := by
  obtain ⟨-, -, e2, e3, -⟩ := idx1 t
  unfold iblk1
  rw [View.read_apply]
  show V c main_arg3 _ = V c main_arg3 _
  congr 1
  funext a
  apply Fin.ext
  match a with
  | ⟨0, _⟩ => show win1_1.index t 0 * 128 + 1 * k.val = k.val; rw [e2]; omega
  | ⟨1, _⟩ => show win1_1.index t 1 * 64 + 1 * q.val = q.val; rw [e3]; omega

theorem iblk1_2_apply (c : Dev nD) (t : Fin cfg1.N) (q : Fin 64) :
    (iblk1 V c 2 t : Vec Ideal S1x64 .f32) (ix2 (0 : Fin 1) q) = (V c main_v28 : S1x64.Idx → Elt Ideal .f32) (ix2 (0 : Fin 1) q) := by
  obtain ⟨-, -, -, -, e4, e5, -⟩ := idx1 t
  unfold iblk1
  rw [View.read_apply]
  show V c main_v28 _ = V c main_v28 _
  congr 1
  funext a
  apply Fin.ext
  match a with
  | ⟨0, _⟩ => show win1_2.index t 0 * 1 + 1 * 0 = 0; rw [e4]
  | ⟨1, _⟩ => show win1_2.index t 1 * 64 + 1 * q.val = q.val; rw [e5]; omega

/-- WHAT POINT t OF REGION 1 WRITES BACK is block t of the layer of the arrays the region finds. -/
theorem flushed1 (c : Dev nD) (t : Fin cfg1.N) :
    (dat1 V c).flushed 3 t
      = ((cfg1.win 3).blk t).view.read (Elt Ideal) (layer1 (V c main_v27) (V c main_arg3) (V c main_v28)) := by
  obtain ⟨-, -, -, -, -, -, e6, e7⟩ := idx1 t
  have ht : t.val < 10 := by have h1 := t.isLt; have h2 : cfg1.N = 10 := N_1; omega
  show (cfg1.win 3).cut (grid1.coords t) ((dat1 V c).after 3 t) = _
  rw [after1_3]
  unfold out1_3
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = (ix2 p q : S5000x64.Idx) := ⟨j 0, j 1, eq_ix2 j⟩
  have hlt : t.val * 5000 + p.val < 50000 := by have := p.isLt; omega
  rw [View.read_apply]
  have he : ((View.whole main_v29).slice ((win1 3).rect t)).emb (ix2 p q) = (ix2 ⟨t.val * 5000 + p.val, hlt⟩ q : S50000x64.Idx) := by
    funext a; apply Fin.ext
    match a with
    | ⟨0, _⟩ => show win1_3.index t 0 * 5000 + 1 * p.val = t.val * 5000 + p.val; rw [e6]; omega
    | ⟨1, _⟩ => show win1_3.index t 1 * 64 + 1 * q.val = q.val; rw [e7]; omega
  rw [he]
  exact pay1_apply _ _ _ _ _ _ (t.val * 5000) (fun p k h => iblk1_0_apply V c t p k h) (fun k q => iblk1_1_apply V c t k q)
    (fun q => iblk1_2_apply V c t q) p q hlt

theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v29).slice (win1_3.rect t)).set ↔ _
  rw [View.set_slice_whole, Rect.mem_set_unit]
  exact Iff.rfl

theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, e6, e7⟩ := idx1 t
  refine ⟨t, flush1_3 t, ?_⟩
  rw [mem_blk1]
  intro a
  match a with
  | ⟨0, _⟩ => show win1_3.index t 0 * 5000 ≤ (i 0).val ∧ (i 0).val < win1_3.index t 0 * 5000 + 5000; rw [e6]; omega
  | ⟨1, _⟩ => show win1_3.index t 1 * 64 ≤ (i 1).val ∧ (i 1).val < win1_3.index t 1 * 64 + 64; rw [e7]; omega

/-- REGION 1's RESULT ARRAY after the region: the layer of the arrays the region finds. -/
theorem final1 (c : Dev nD) : (dat1 V c).arrAt 3 cfg1.N = layer1 (V c main_v27) (V c main_arg3) (V c main_v28) :=
  (dat1 V c).arrAt_eq_of_cover 3 (layer1 (V c main_v27) (V c main_arg3) (V c main_v28)) (fun t _ => flushed1 V c t) cover1

end Cert.KernelIdeal.Hand

end
-- ==== Proof.Net.lean ====
/-
  The network as ONE function of the argument arrays.

  A graph-convolution layer first forms, for every node i, the weighted sum of the feature rows of the nodes its
  incoming edges start from: out[i] = Σ over edges e with row_e = i of w_e · X[col_e] (a negative column index counted
  from the end, as the host's gather reads it); this is a gather of rows, a product with the edge weights repeated
  along each row, and a scatter that adds each edge's row into its target row of a zero array. Both programs compute
  it with the same host operations, so it is kept here as that one term and never opened. The network is: the sparse
  product of the features, the rectified affine layer with the first weights and bias, the sparse product of that, and
  the affine layer with the second weights and bias.
-/
import proofs.«103124_j48533130445596_1_alg».proof.KernelIdeal
import proofs.«103124_j48533130445596_1_alg».proof.Proof.Gen.KernelIdeal
import proofs.«103124_j48533130445596_1_alg».proof.Proof.Affine

noncomputable section

namespace Cert.KernelIdeal.Hand

open Cert.KernelIdeal Cert.KernelIdeal.Facts₀ Idealize.ShloMosaic Idealize.ShloMosaic.ValueIdx Cert.Affine

/-- The sparse product of the edge list (row, col, w) with the feature array X: each edge's weight times the feature
    row of its column node, added into the row of its row node. -/
def spmm {F : FTy → Type} [FloatOps F] (X : FVec F S50000x128 .f32) (row col : IVec S800000 32) (w : FVec F S800000 .f32) :
    FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 X
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The two-layer network at the ideal values. -/
def net (X : FVec Ideal S50000x128 .f32) (W1 : FVec Ideal S128x128 .f32) (b1 : FVec Ideal S128 .f32)
    (W2 : FVec Ideal S128x64 .f32) (b2 : FVec Ideal S64 .f32) (row col : IVec S800000 32) (w : FVec Ideal S800000 .f32) :
    FVec Ideal S50000x64 .f32 :=
  affine (spmm (relu (affine (spmm X row col w) W1 fun q => b1 (ix1 q))) row col w) W2 fun q => b2 (ix1 q)

end Cert.KernelIdeal.Hand

end
-- ==== Proof.KernelValue.lean ====
/-
  The kernel program's result as the network of its arguments.

  Read from the end: the result array is the second region's affine layer of what that region finds — the second
  sparse product, the second weights, the second bias as a row. The second sparse product was written by the host
  stretch before the region from the first region's result array, which is the rectified affine layer of what the
  first region found: the first sparse product, the first weights, the first bias as a row, all written by the
  first host stretch from the arguments. No host operation and no region writes an argument.
-/
import proofs.«103124_j48533130445596_1_alg».proof.Proof.KernelRun
import proofs.«103124_j48533130445596_1_alg».proof.Proof.Blocks
import proofs.«103124_j48533130445596_1_alg».proof.Proof.Net
import Idealize.ShloMosaic.Lib.StableHlo.Run
import Idealize.ShloMosaic.Lib.ValueLayout

noncomputable section

namespace Cert.KernelIdeal.Hand

open Cert.KernelIdeal Cert.KernelIdeal.Gen Cert.KernelIdeal.Facts₀ Cert.Affine
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The first host stretch, from the launch memory -/

theorem V1_v12 (c : Dev nD) : (V1 m ρ c main_v12 : S50000x128.Idx → Elt Ideal .f32)
    = spmm (F := Ideal) (m ((c : Thread nD τ).loc main_arg0)) (m ((c : Thread nD τ).loc main_arg5)) (m ((c : Thread nD τ).loc main_arg6)) (m ((c : Thread nD τ).loc main_arg7)) := by
  show StableHlo.after hostOps0 (W0 m ρ c) (Proc.devRef .tc main_v12) = _
  after_results
  rfl

theorem V1_arg1 (c : Dev nD) : (V1 m ρ c main_arg1 : S128x128.Idx → Elt Ideal .f32) = m ((c : Thread nD τ).loc main_arg1) := by
  show StableHlo.after hostOps0 (W0 m ρ c) (Proc.devRef .tc main_arg1) = _
  after_results

/-- The first bias as the first region finds it: the bias vector cast to one row. -/
theorem V1_v13 (c : Dev nD) : (V1 m ρ c main_v13 : S1x128.Idx → Elt Ideal .f32)
    = shapeCast S1x128 (m ((c : Thread nD τ).loc main_arg2)) Facts₀.shapeCasts_S128_S1x128 := by
  show StableHlo.after hostOps0 (W0 m ρ c) (Proc.devRef .tc main_v13) = _
  after_results
  rfl

/-- The arguments the second stretch reads are, after the first stretch and the first region, as launched. -/
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-! ## The first region -/

/-- The hidden array after the first region: the rectified first layer of the first sparse product. -/
theorem W2_v14 (c : Dev nD) : (W2 m ρ c (Proc.devRef .tc main_v14) : S50000x128.Idx → Elt Ideal .f32)
    = relu (affine (spmm (F := Ideal) (m ((c : Thread nD τ).loc main_arg0)) (m ((c : Thread nD τ).loc main_arg5)) (m ((c : Thread nD τ).loc main_arg6)) (m ((c : Thread nD τ).loc main_arg7)))
        (m ((c : Thread nD τ).loc main_arg1)) fun q => (m ((c : Thread nD τ).loc main_arg2) : S128.Idx → Elt Ideal .f32) (ix1 q)) := by
  refine ((W2_arr m ρ c 3).trans (final0 (V1 m ρ) c)).trans ?_
  rw [V1_v12, V1_arg1, V1_v13]
  unfold layer0
  simp only [shapeCast_a_1a_apply]

/-! ## The second host stretch, from the first region's exit -/

theorem V3_v27 (c : Dev nD) : (V3 m ρ c main_v27 : S50000x128.Idx → Elt Ideal .f32)
    = spmm (F := Ideal) (W2 m ρ c (Proc.devRef .tc main_v14)) (W2 m ρ c (Proc.devRef .tc main_arg5)) (W2 m ρ c (Proc.devRef .tc main_arg6)) (W2 m ρ c (Proc.devRef .tc main_arg7)) := by
  show StableHlo.after hostOps1 (W2 m ρ c) (Proc.devRef .tc main_v27) = _
  after_results
  rfl

theorem V3_arg3 (c : Dev nD) : (V3 m ρ c main_arg3 : S128x64.Idx → Elt Ideal .f32) = W2 m ρ c (Proc.devRef .tc main_arg3) := by
  show StableHlo.after hostOps1 (W2 m ρ c) (Proc.devRef .tc main_arg3) = _
  after_results

/-- The second bias as the second region finds it: the bias vector cast to one row. -/
theorem V3_v28 (c : Dev nD) : (V3 m ρ c main_v28 : S1x64.Idx → Elt Ideal .f32)
    = shapeCast S1x64 (W2 m ρ c (Proc.devRef .tc main_arg4) : S64.Idx → Elt Ideal .f32) Facts₀.shapeCasts_S64_S1x64 := by
  show StableHlo.after hostOps1 (W2 m ρ c) (Proc.devRef .tc main_v28) = _
  after_results
  rfl

/-! ## The result -/

/-- THE KERNEL PROGRAM'S RESULT is the network of its arguments. -/
theorem result_value (c : Dev nD) : (W4 m ρ c (Proc.devRef .tc main_v29) : S50000x64.Idx → Elt Ideal .f32)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine ((result_arr m ρ c).trans (final1 (V3 m ρ) c)).trans ?_
  rw [V3_v27, V3_arg3, V3_v28, W2_v14, W2_arg3, W2_arg4, W2_arg5, W2_arg6, W2_arg7]
  unfold layer1 net
  simp only [shapeCast_a_1a_apply]

/-- The run with the result at the network of the arguments, the arguments unchanged. -/
theorem run : θ_run defs (onTc (τ := τ) (main (F := Ideal))) ⟨m, fun _ => 0, ρ⟩ (fun r => ∀ c : Dev nD,
      r.2.mem ((c.tc : Thread nD τ).loc main_v29)
        = net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.KernelIdeal.Hand

end
-- ==== Proof.RefValue.lean ====
/-
  The reference program's result as the network of its arguments.

  The reference computes each affine layer with ONE product of the whole 50000-row array, the bias vector made a row
  and repeated along the rows, and for the first layer the larger of the sum and the zero word repeated everywhere;
  between them the same host operations form the sparse products. Read at an entry the host's product is the plain
  sum over the contracted coordinate, so each layer is the layer of `Cert.Affine` and the whole term is the network.
-/
import proofs.«103124_j48533130445596_1_alg».proof.Proof.Gen.ReferenceIdeal.Read
import proofs.«103124_j48533130445596_1_alg».proof.Proof.Net

noncomputable section

namespace Cert.ReferenceIdeal.RefValue

open Cert.ReferenceIdeal Cert.ReferenceIdeal.Facts₀ Cert.ReferenceIdeal.Facts Cert.ReferenceIdeal.Read Cert.Affine
open Idealize.ShloMosaic Idealize.ShloMosaic.ValueIdx
open Cert.KernelIdeal.Hand (spmm net)

variable (x0 : FVec Ideal S50000x128 .f32) (x1 : FVec Ideal S128x128 .f32) (x2 : FVec Ideal S128 .f32)
  (x3 : FVec Ideal S128x64 .f32) (x4 : FVec Ideal S64 .f32) (x5 x6 : IVec S800000 32) (x7 : FVec Ideal S800000 .f32)

/-- The reference's first sparse product is the network's: the same host operations. -/
theorem first_spmm : val_main_v12 (F := Ideal) x0 x5 x6 x7 = spmm x0 x5 x6 x7 := rfl

/-- The reference's hidden array: the rectified first layer of the first sparse product. -/
theorem hidden_eq : val_main_v17 (F := Ideal) x0 x1 x2 x5 x6 x7
    = relu (affine (spmm x0 x5 x6 x7) x1 fun q => x2 (ix1 q)) :=
  (host_relu bcast_S_S50000x128 _).trans (congrArg relu
    (host_affine dot_S50000x128_S128x128_S50000x128_1_0_0_1_n_n rfl none bcast_S128_S1x128_1 bcast_S1x128_S50000x128_0_1 _ x1 x2))

/-- The reference's second sparse product, of its hidden array. -/
theorem second_spmm : val_main_v30 (F := Ideal) x0 x1 x2 x5 x6 x7 = spmm (val_main_v17 (F := Ideal) x0 x1 x2 x5 x6 x7) x5 x6 x7 := rfl

/-- THE REFERENCE'S RESULT is the network of its arguments. -/
theorem result_eq : val_main_v34 (F := Ideal) x0 x1 x2 x3 x4 x5 x6 x7 = net x0 x1 x2 x3 x4 x5 x6 x7 := by
  refine (host_affine dot_S50000x128_S128x64_S50000x64_1_0_0_1_n_n rfl none bcast_S64_S1x64_1 bcast_S1x64_S50000x64_0_1
    (val_main_v30 (F := Ideal) x0 x1 x2 x5 x6 x7) x3 x4).trans ?_
  rw [second_spmm, hidden_eq]
  rfl

end Cert.ReferenceIdeal.RefValue

end
-- ==== Proof.lean ====
/-
  Two-layer graph convolution: the kernel program against its reference, over the extended reals.

  Both programs compute out = A·relu(A·X·W1 + b1)·W2 + b2, where A·Y is the sparse product of the edge list with Y
  (gather the rows of Y at the edges' column nodes, scale by the edge weights, add into the rows of the edges' row
  nodes). The sparse products are the same host operations in both programs. The dense layers differ: the reference
  multiplies the whole 50000-row array with the weights once and adds the bias repeated along the rows; the kernel
  program walks the rows in ten blocks of 5000, and per block multiplies the block (its operands rounded to a
  narrower format, which changes nothing at the ideal values) with the whole weight matrix into a zero accumulator
  and adds the bias row. Entry (r, q) of either is the sum over c of Y(r, c)·W(c, q), plus b(q) — a finite sum that
  reads only row r of Y — so the block that holds row r computes exactly the reference's entry, and the ten blocks tile
  the rows. No law of arithmetic beyond reading both sides as the same sum is used, so the precondition (finite
  inputs) is never opened. The idealization rewrote no operation, so there is nothing to preserve.
-/
import proofs.«103124_j48533130445596_1_alg».proof.Defs
import proofs.«103124_j48533130445596_1_alg».proof.Proof.Gen.Kernel
import proofs.«103124_j48533130445596_1_alg».proof.Proof.Gen.Kernel.Skeleton
import proofs.«103124_j48533130445596_1_alg».proof.Proof.Gen.Kernel.Launch
import proofs.«103124_j48533130445596_1_alg».proof.Proof.Gen.Kernel.Points
import proofs.«103124_j48533130445596_1_alg».proof.Proof.Gen.Kernel.Frame
import proofs.«103124_j48533130445596_1_alg».proof.Proof.Gen.KernelIdeal
import proofs.«103124_j48533130445596_1_alg».proof.Proof.Gen.KernelIdeal.Skeleton
import proofs.«103124_j48533130445596_1_alg».proof.Proof.Gen.KernelIdeal.Launch
import proofs.«103124_j48533130445596_1_alg».proof.Proof.Gen.KernelIdeal.Points
import proofs.«103124_j48533130445596_1_alg».proof.Proof.Gen.KernelIdeal.Frame
import proofs.«103124_j48533130445596_1_alg».proof.Proof.Gen.ReferenceIdeal
import proofs.«103124_j48533130445596_1_alg».proof.Proof.Gen.Pre_finite_inputs
import proofs.«103124_j48533130445596_1_alg».proof.Proof.Gen.ReferenceIdeal.Run
import proofs.«103124_j48533130445596_1_alg».proof.Proof.Gen.ReferenceIdeal.Read
import proofs.«103124_j48533130445596_1_alg».proof.Proof.KernelValue
import proofs.«103124_j48533130445596_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs, from memories that agree on the arguments, end with the result at the network of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  refine (Cert.ReferenceIdeal.RefValue.result_eq
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))).trans ?_
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
